-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8x2048 : Shape := ⟨3, ![2048, 8, 2048]⟩
abbrev S8x2048 : Shape := ⟨2, ![8, 2048]⟩
abbrev S8 : Shape := ⟨1, ![8]⟩
abbrev S2048x2048 : Shape := ⟨2, ![2048, 2048]⟩
abbrev S2048 : Shape := ⟨1, ![2048]⟩
abbrev S_ : Shape := ⟨0, ![]⟩

class Facts : Prop where
  bcast_S_S2048x8x2048 : S_.BroadcastsInDim S2048x8x2048 (![] : Fin 0 → Fin S2048x8x2048.rank)
  reducesTo_S2048x8x2048_S_d0_1_2 : S2048x8x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg9 : FVec F S2048x2048 .f32) (main_arg10 : FVec F S2048 .f32) (main_v33 : IVec S_ 1) : IVec S_ 1 :=
  let main_v34 : FVec F S2048x2048 .f32 := Host.absf main_arg9
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg10
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg6 : FVec F S2048 .f32) (main_arg7 : FVec F S2048x2048 .f32) (main_arg8 : FVec F S2048 .f32) (main_arg9 : FVec F S2048x2048 .f32) (main_arg10 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg6
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg7
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg8
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg9 main_arg10 main_v33

def fn {F : FTy → Type} [FloatOps F] (main_arg0 : FVec F S2048x8x2048 .f32) (main_arg1 : FVec F S2048x8x2048 .f32) (main_arg2 : FVec F S2048x8x2048 .f32) (main_arg3 : IVec S8x2048 1) (main_arg4 : IVec S8 32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) : IVec S_ 1 :=
  let main_v0 : FVec F S2048x8x2048 .f32 := Host.absf main_arg0
  let main_cst : FVec F S_ .f32 := constant S_ .f32 0x7F800000#32
  let main_v1 : FVec F S2048x8x2048 .f32 := broadcastInDim S2048x8x2048 ![] bcast_S_S2048x8x2048 main_cst
  let main_v2 : IVec S2048x8x2048 1 := cmpf .olt main_v0 main_v1
  let main_c : IVec S_ 1 := constantI S_ 1 1#1
  let main_v3 : IVec S_ 1 := (fun x v => Host.reduce IntOp.andi x v reducesTo_S2048x8x2048_S_d0_1_2 h_S_) main_v2 main_c
  let main_v4 : FVec F S2048x8x2048 .f32 := Host.absf main_arg1
  let main_cst_0 : FVec F S_ .f32 := constant S_ .f32 0x7F800000#32
  let main_v5 : FVec F S2048x8x2048 .f32 := broadcastInDim S2048x8x2048 ![] bcast_S_S2048x8x2048 main_cst_0
  let main_v6 : IVec S2048x8x2048 1 := cmpf .olt main_v4 main_v5
  let main_c_1 : IVec S_ 1 := constantI S_ 1 1#1
  let main_v7 : IVec S_ 1 := (fun x v => Host.reduce IntOp.andi x v reducesTo_S2048x8x2048_S_d0_1_2 h_S_) main_v6 main_c_1
  let main_v8 : IVec S_ 1 := andi main_v3 main_v7
  let main_v9 : FVec F S2048x8x2048 .f32 := Host.absf main_arg2
  let main_cst_2 : FVec F S_ .f32 := constant S_ .f32 0x7F800000#32
  let main_v10 : FVec F S2048x8x2048 .f32 := broadcastInDim S2048x8x2048 ![] bcast_S_S2048x8x2048 main_cst_2
  let main_v11 : IVec S2048x8x2048 1 := cmpf .olt main_v9 main_v10
  let main_c_3 : IVec S_ 1 := constantI S_ 1 1#1
  let main_v12 : IVec S_ 1 := (fun x v => Host.reduce IntOp.andi x v reducesTo_S2048x8x2048_S_d0_1_2 h_S_) main_v11 main_c_3
  let main_v13 : IVec S_ 1 := andi main_v8 main_v12
  let main_v14 : FVec F S2048x2048 .f32 := Host.absf main_arg5
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg6 main_arg7 main_arg8 main_arg9 main_arg10 main_v13 main_v16
-- ==== Kernel.lean ====
abbrev S2048x8x2048 : Shape := ⟨3, ![2048, 8, 2048]⟩
abbrev S8x2048 : Shape := ⟨2, ![8, 2048]⟩
abbrev S8 : Shape := ⟨1, ![8]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S128x2048 : Shape := ⟨2, ![128, 2048]⟩

abbrev nBuf : Space → Nat
  | .hbm => 22
  | .vmem => 13
  | .smem => 0
  | _ => 0

abbrev bufTy : (tb : Table) → Fin (tcTables nBuf tb) → BufTy
  | .hbm, ⟨0, _⟩ => ⟨S2048x8x2048, .f32⟩
  | .hbm, ⟨1, _⟩ => ⟨S2048x8x2048, .f32⟩
  | .hbm, ⟨2, _⟩ => ⟨S2048x8x2048, .f32⟩
  | .hbm, ⟨3, _⟩ => ⟨S8x2048, .i1⟩
  | .hbm, ⟨4, _⟩ => ⟨S8, .i32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S2048x2048, .bf16⟩
  | .hbm, ⟨15, _⟩ => ⟨S2048x2048, .bf16⟩
  | .hbm, ⟨16, _⟩ => ⟨S2048x2048, .bf16⟩
  | .hbm, ⟨17, _⟩ => ⟨S2048, .f32⟩
  | .hbm, ⟨18, _⟩ => ⟨S1x2048, .f32⟩
  | .hbm, ⟨19, _⟩ => ⟨S1x2048, .f32⟩
  | .hbm, ⟨20, _⟩ => ⟨S16384x2048, .f32⟩
  | .hbm, ⟨21, _⟩ => ⟨S2048x8x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S2048x2048, .bf16⟩
  | .local _ .vmem, ⟨7, _⟩ => ⟨S1x2048, .f32⟩
  | .local _ .vmem, ⟨8, _⟩ => ⟨S2048x2048, .bf16⟩
  | .local _ .vmem, ⟨9, _⟩ => ⟨S2048x2048, .bf16⟩
  | .local _ .vmem, ⟨10, _⟩ => ⟨S1x2048, .f32⟩
  | .local _ .vmem, ⟨11, _⟩ => ⟨S128x2048, .f32⟩
  | .local _ .vmem, ⟨12, _⟩ => ⟨S128x2048, .f32⟩
  | _, _ => ⟨S2048x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S2048x8x2048_S16384x2048 : S2048x8x2048.ShapeCasts S16384x2048
  bitsLt_bf16_f32 : FTy.bits .bf16 < FTy.bits .f32
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  shapeCasts_S16384x2048_S2048x8x2048 : S16384x2048.ShapeCasts S2048x8x2048
  dot_S128x2048_S2048x2048_S128x2048_1_1_0_0_n_n_wf : DotDims.WF S128x2048 S2048x2048 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S16384x2048.size a
  hwx0_0 : ∀ i : grid0.Coords, EltTy.bits .f32 = 32 ∨ (Rect.block (s := S16384x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S16384x2048.size a
  hwx0_1 : ∀ i : grid0.Coords, EltTy.bits .f32 = 32 ∨ (Rect.block (s := S16384x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S16384x2048.size a
  hwx0_2 : ∀ i : grid0.Coords, EltTy.bits .f32 = 32 ∨ (Rect.block (s := S16384x2048) S128x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .bf16 = 32 ∨ (Rect.block (s := S2048x2048) S2048x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S16384x2048.size a
  hwx0_8 : ∀ i : grid0.Coords, EltTy.bits .f32 = 32 ∨ (Rect.block (s := S16384x2048) S128x2048.size (cc0_transform_8 i) (hinb0_8 i)).WholeWords (EltTy.packing .f32)

variable [Facts₀]

def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf

abbrev win0_0 : Pipeline.Window sig grid0 :=
  Pipeline.Window.ofSpec (Memref.whole main_v1) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S128x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2048x8x2048 : Shape := ⟨3, ![2048, 8, 2048]⟩
abbrev S8x2048 : Shape := ⟨2, ![8, 2048]⟩
abbrev S8 : Shape := ⟨1, ![8]⟩
abbrev S2048x2048 : Shape := ⟨2, ![2048, 2048]⟩
abbrev S2048 : Shape := ⟨1, ![2048]⟩
abbrev S1x1x2048 : Shape := ⟨3, ![1, 1, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2048x8x2048, .f32⟩
  | .hbm, ⟨1, _⟩ => ⟨S2048x8x2048, .f32⟩
  | .hbm, ⟨2, _⟩ => ⟨S2048x8x2048, .f32⟩
  | .hbm, ⟨3, _⟩ => ⟨S8x2048, .i1⟩
  | .hbm, ⟨4, _⟩ => ⟨S8, .i32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x8x2048, .f32⟩
  | .hbm, ⟨12, _⟩ => ⟨S1x1x2048, .f32⟩
  | .hbm, ⟨13, _⟩ => ⟨S2048x8x2048, .f32⟩
  | .hbm, ⟨14, _⟩ => ⟨S2048x8x2048, .f32⟩
  | .hbm, ⟨15, _⟩ => ⟨S2048x8x2048, .f32⟩
  | .hbm, ⟨16, _⟩ => ⟨S2048x8x2048, .f32⟩
  | .hbm, ⟨17, _⟩ => ⟨S1x1x2048, .f32⟩
  | .hbm, ⟨18, _⟩ => ⟨S2048x8x2048, .f32⟩
  | .hbm, ⟨19, _⟩ => ⟨S2048x8x2048, .f32⟩
  | .hbm, ⟨20, _⟩ => ⟨S2048x8x2048, .f32⟩
  | .hbm, ⟨21, _⟩ => ⟨S2048x8x2048, .f32⟩
  | .hbm, ⟨22, _⟩ => ⟨S1x1x2048, .f32⟩
  | .hbm, ⟨23, _⟩ => ⟨S2048x8x2048, .f32⟩
  | .hbm, ⟨24, _⟩ => ⟨S2048x8x2048, .f32⟩
  | .hbm, ⟨25, _⟩ => ⟨S2048x8x2048, .f32⟩
  | .hbm, ⟨26, _⟩ => ⟨S2048x8x2048, .f32⟩
  | .hbm, ⟨27, _⟩ => ⟨S_, .f32⟩
  | .hbm, ⟨28, _⟩ => ⟨S2048x8x2048, .f32⟩
  | .hbm, ⟨29, _⟩ => ⟨S2048x8x2048, .f32⟩
  | .hbm, ⟨30, _⟩ => ⟨S_, .f32⟩
  | .hbm, ⟨31, _⟩ => ⟨S2048x8x2048, .f32⟩
  | .hbm, ⟨32, _⟩ => ⟨S2048x8x2048, .f32⟩
  | .hbm, ⟨33, _⟩ => ⟨S2048x8x2048, .f32⟩
  | _, _ => ⟨S2048x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S2048x8x2048_0_1_2 : S1x1x2048.BroadcastsInDim S2048x8x2048 (![0, 1, 2] : Fin 3 → Fin S2048x8x2048.rank)
  bcast_S_S2048x8x2048 : S_.BroadcastsInDim S2048x8x2048 (![] : Fin 0 → Fin S2048x8x2048.rank)
  dot_S2048x8x2048_S2048x2048_S2048x8x2048_2_1_01_0_n_n_wf : DotDims.WF S2048x8x2048 S2048x2048 S2048x8x2048 [2] [1] [0, 1] [0] [] []

variable [Facts₀]

def dot_S2048x8x2048_S2048x2048_S2048x8x2048_2_1_01_0_n_n : DotDims S2048x8x2048 S2048x2048 S2048x8x2048 where
  lhsContracting := [2]
  rhsContracting := [1]
  lhsNonContracting := [0, 1]
  rhsNonContracting := [0]
  lhsBatch := []
  rhsBatch := []
  wf := dot_S2048x8x2048_S2048x2048_S2048x8x2048_2_1_01_0_n_n_wf

class Facts : Prop extends Facts₀ where

variable [Facts]
-- ==== Proof.Spec.lean ====
/-
  The function both programs compute, on the extended reals.

  For one token row with features `l` (the layer input) and `x`, weight matrices `W1`, `W2`, `V` stored as
  `W[e, d]` (output feature first), a combined first-layer bias `b` and the second-layer bias `c`:

      hidden k = tanh ((Σ_d l d · W1[k, d] + Σ_d x d · W2[k, d]) + b k)
      gate   q = logistic (Σ_k hidden k · V[q, k] + c q) · pe q

  The kernel adds the two first-layer biases to each other before adding them to the sum of the two products; the
  reference adds the first bias to the first product, then the second product, then the second bias. Addition on
  the extended reals is commutative and associative (even at the infinities), so the two groupings agree
  (`bias_regroup`). The reference spells the logistic function as `1 / (1 + exp (-t))` with the float literal
  `1.0`, which is the same function (`logistic_spelled`).
-/
import Idealize.ShloMosaic.PureOps.Ideal
import Idealize.ShloMosaic.PureOps.Ideal.Laws
import Idealize.ShloMosaic.Lib.ValueIdx

noncomputable section

namespace Cert.GatedPenalty

open Idealize.ShloMosaic Idealize.ShloMosaic.ValueIdx

/-- A square weight matrix, `W[e, d]`. -/
abbrev Mat : Shape := ⟨2, ![2048, 2048]⟩

/-- Hidden unit `k` of a row: `tanh` of the two dot products against row `k` of `W1` and of `W2`, plus the bias. -/
def hidden (l x : Fin 2048 → EReal) (W1 W2 : Mat.Idx → EReal) (b : Fin 2048 → EReal) (k : Fin 2048) : EReal :=
  Ideal.tanh (((∑ d : Fin 2048, l d * W1 (ix2 k d)) + (∑ d : Fin 2048, x d * W2 (ix2 k d))) + b k)

/-- Output feature `q` of a row: the logistic gate of the hidden units against row `q` of `V`, times the position
    embedding's entry. -/
def gate (l x : Fin 2048 → EReal) (W1 W2 V : Mat.Idx → EReal) (b : Fin 2048 → EReal) (c pe : EReal) (q : Fin 2048) : EReal :=
  Ideal.logistic ((∑ k : Fin 2048, hidden l x W1 W2 b k * V (ix2 q k)) + c) * pe

/-- An activation array, `[position, batch, feature]`. -/
abbrev Act : Shape := ⟨3, ![2048, 8, 2048]⟩
/-- A bias vector. -/
abbrev Bias : Shape := ⟨1, ![2048]⟩

/-- The result at position `s`, batch entry `b`, feature `e`, from the argument arrays: the row is `(s, b)` of the
    layer input and of `x`, the first-layer bias is `b1 + b2`. -/
def result (x li pe : Act.Idx → EReal) (W1 : Mat.Idx → EReal) (b1 : Bias.Idx → EReal) (W2 : Mat.Idx → EReal) (b2 : Bias.Idx → EReal)
    (V : Mat.Idx → EReal) (bV : Bias.Idx → EReal) (s : Fin 2048) (b : Fin 8) (e : Fin 2048) : EReal :=
  gate (fun d => li (ix3 s b d)) (fun d => x (ix3 s b d)) W1 W2 V (fun k => b1 (ix1 k) + b2 (ix1 k)) (bV (ix1 e)) (pe (ix3 s b e)) e

/-- The whole result array. -/
def resultArr (x li pe : Act.Idx → EReal) (W1 : Mat.Idx → EReal) (b1 : Bias.Idx → EReal) (W2 : Mat.Idx → EReal) (b2 : Bias.Idx → EReal)
    (V : Mat.Idx → EReal) (bV : Bias.Idx → EReal) : Act.Idx → EReal :=
  fun i => result x li pe W1 b1 W2 b2 V bV (i 0) (i 1) (i 2)

/-- The matrix of all `2048 · 8` token rows. -/
abbrev Rows : Shape := ⟨2, ![16384, 2048]⟩

/-- Row `r` of the matrix of rows is position `r / 8`, -/
def position (r : Fin 16384) : Fin 2048 := ⟨r.val / 8, by omega⟩
/-- batch entry `r % 8`. -/
def batch (r : Fin 16384) : Fin 8 := ⟨r.val % 8, by omega⟩

theorem row_eq (r : Fin 16384) : r.val = (position r).val * 8 + (batch r).val := by
  show r.val = r.val / 8 * 8 + r.val % 8
  omega

/-- Position `s`, batch entry `b` is row `s · 8 + b`. -/
def rowOf (s : Fin 2048) (b : Fin 8) : Fin 16384 := ⟨s.val * 8 + b.val, by omega⟩

theorem position_rowOf (s : Fin 2048) (b : Fin 8) : position (rowOf s b) = s :=
  Fin.ext (by show (s.val * 8 + b.val) / 8 = s.val; omega)
theorem batch_rowOf (s : Fin 2048) (b : Fin 8) : batch (rowOf s b) = b :=
  Fin.ext (by show (s.val * 8 + b.val) % 8 = b.val; omega)

/-- The result as a matrix of rows: what the kernel's launch writes before it is recast to `[position, batch, feature]`. -/
def resultRows (x li pe : Act.Idx → EReal) (W1 : Mat.Idx → EReal) (b1 : Bias.Idx → EReal) (W2 : Mat.Idx → EReal) (b2 : Bias.Idx → EReal)
    (V : Mat.Idx → EReal) (bV : Bias.Idx → EReal) : Rows.Idx → EReal :=
  fun j => result x li pe W1 b1 W2 b2 V bV (position (j 0)) (batch (j 0)) (j 1)

/-- Four summands regrouped: `((A + b₁) + B) + b₂ = (A + B) + (b₁ + b₂)`, on the extended reals. -/
theorem bias_regroup (A B b₁ b₂ : EReal) : ((A + b₁) + B) + b₂ = (A + B) + (b₁ + b₂) := by
  rw [add_assoc (A + b₁) B b₂, add_add_add_comm A b₁ B b₂]

/-- The float literal `1.0` is the real number one. -/
theorem ofBits_one : Ideal.ofBits .f32 0x3F800000#32 = (1 : EReal) := by
  simp [Ideal.ofBits, Ideal.ieee, -EReal.coe_mul]
  norm_num

/-- The logistic function spelled out with the literal `1.0`: `1.0 / (1.0 + exp (-t))`. -/
theorem logistic_spelled (t : EReal) :
    Ideal.div (Ideal.ofBits .f32 0x3F800000#32) (Ideal.ofBits .f32 0x3F800000#32 + Ideal.exp (-t)) = Ideal.logistic t := by
  rw [ofBits_one]; rfl

end Cert.GatedPenalty

end
-- ==== Proof.RefSide.lean ====
/-
  The reference computes the specification. Its result element at `(s, b, e)` is read one operation at a time: three
  contractions over the feature axis (each a plain sum on the extended reals), biases broadcast along the feature
  axis, `tanh`, and the logistic function written as `1 / (1 + exp (-t))`. The only algebra is the regrouping of the
  four first-layer summands.
-/
import proofs.«163592_j46591805227609_2_alg».proof.Proof.Gen.ReferenceIdeal.Read
import proofs.«163592_j46591805227609_2_alg».proof.Proof.Spec

noncomputable section

namespace Cert.GatedPenalty.Reference

open Cert.ReferenceIdeal Cert.ReferenceIdeal.Read Idealize.ShloMosaic Idealize.ShloMosaic.ValueIdx Cert.GatedPenalty

/-! The operand indices of the three contractions and of the bias broadcasts, at an index given by coordinates. -/

theorem lidx0 (s : Fin 2048) (b : Fin 8) (e k : Fin 2048) : lidx_main_v0 (ix3 s b e) k = ix3 s b k :=
  funext fun a => by match a with | ⟨0, _⟩ => rfl | ⟨1, _⟩ => rfl | ⟨2, _⟩ => rfl
theorem ridx0 (s : Fin 2048) (b : Fin 8) (e k : Fin 2048) : ridx_main_v0 (ix3 s b e) k = ix2 e k :=
  funext fun a => by match a with | ⟨0, _⟩ => rfl | ⟨1, _⟩ => rfl
theorem lidx4 (s : Fin 2048) (b : Fin 8) (e k : Fin 2048) : lidx_main_v4 (ix3 s b e) k = ix3 s b k :=
  funext fun a => by match a with | ⟨0, _⟩ => rfl | ⟨1, _⟩ => rfl | ⟨2, _⟩ => rfl
theorem ridx4 (s : Fin 2048) (b : Fin 8) (e k : Fin 2048) : ridx_main_v4 (ix3 s b e) k = ix2 e k :=
  funext fun a => by match a with | ⟨0, _⟩ => rfl | ⟨1, _⟩ => rfl
theorem lidx10 (s : Fin 2048) (b : Fin 8) (e k : Fin 2048) : lidx_main_v10 (ix3 s b e) k = ix3 s b k :=
  funext fun a => by match a with | ⟨0, _⟩ => rfl | ⟨1, _⟩ => rfl | ⟨2, _⟩ => rfl
theorem ridx10 (s : Fin 2048) (b : Fin 8) (e k : Fin 2048) : ridx_main_v10 (ix3 s b e) k = ix2 e k :=
  funext fun a => by match a with | ⟨0, _⟩ => rfl | ⟨1, _⟩ => rfl
theorem bidx2 (s : Fin 2048) (b : Fin 8) (e : Fin 2048) : idx_main_v1 (idx_main_v2 (ix3 s b e)) = ix1 e :=
  funext fun a => by match a with | ⟨0, _⟩ => rfl
theorem bidx7 (s : Fin 2048) (b : Fin 8) (e : Fin 2048) : idx_main_v6 (idx_main_v7 (ix3 s b e)) = ix1 e :=
  funext fun a => by match a with | ⟨0, _⟩ => rfl
theorem bidx12 (s : Fin 2048) (b : Fin 8) (e : Fin 2048) : idx_main_v11 (idx_main_v12 (ix3 s b e)) = ix1 e :=
  funext fun a => by match a with | ⟨0, _⟩ => rfl

/-- The reference's last stage is the result array of the specification. -/
theorem reference_eq (x0 x1 x2 : S2048x8x2048.Idx → EReal) (x5 : S2048x2048.Idx → EReal) (x6 : S2048.Idx → EReal)
    (x7 : S2048x2048.Idx → EReal) (x8 : S2048.Idx → EReal) (x9 : S2048x2048.Idx → EReal) (x10 : S2048.Idx → EReal) :
    val_main_v20 (F := Ideal) x0 x1 x2 x5 x6 x7 x8 x9 x10 = resultArr x0 x1 x2 x5 x6 x7 x8 x9 x10 := by
  funext i
  obtain ⟨s, b, e, rfl⟩ : ∃ (s : Fin 2048) (b : Fin 8) (e : Fin 2048), i = ix3 s b e := ⟨i 0, i 1, i 2, eq_ix3 i⟩
  simp only [val_main_v20_apply, val_main_v19_apply, val_main_v18_apply, val_main_cst_0_apply, val_main_v17_apply,
    val_main_v16_apply, val_main_cst_apply, val_main_v15_apply, val_main_v14_apply, val_main_v13_apply, val_main_v10_apply,
    val_main_v12_apply, val_main_v11_apply, val_main_v9_apply, val_main_v8_apply, val_main_v7_apply, val_main_v6_apply,
    val_main_v5_apply, val_main_v4_apply, val_main_v3_apply, val_main_v2_apply, val_main_v1_apply, val_main_v0_apply,
    lidx10, ridx10, lidx4, ridx4, lidx0, ridx0, bidx2, bidx7, bidx12]
  simp only [Ideal.mulf_def, Ideal.hostDivf_def, Ideal.ofBits_def, Ideal.addf_def, Ideal.hostUnary_exp_def,
    Ideal.hostNegf_def, Ideal.negf_def, Ideal.hostUnary_tanh_def, bias_regroup, logistic_spelled]
  rfl

end Cert.GatedPenalty.Reference

end
-- ==== Proof.Payload.lean ====
/-
  What the kernel body stores, element by element. The body loads a 128-row tile of the layer input, of `x` and of
  the position embedding, the three weight matrices whole and the two bias rows, and stores one 128 × 2048 tile.
  Its entry at local row `p` and feature `q` is the specification's `gate` of row `p` of the loaded tiles: each
  matrix product contracts the feature axis of the tile against the SECOND axis of the weight matrix (the weights
  are stored output-feature first) into a zero accumulator, so it is a plain sum; the roundings to bf16 are the
  identity on the extended reals; a bias row is broadcast over the tile's rows.
-/
import proofs.«163592_j46591805227609_2_alg».proof.Proof.Gen.KernelIdeal.Skeleton
import proofs.«163592_j46591805227609_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.GatedPenalty.Kernel

open Cert.KernelIdeal Cert.KernelIdeal.Gen Idealize.ShloMosaic Idealize.ShloMosaic.ValueIdx Cert.GatedPenalty

/-- The tile-by-weights product: rows of the tile against rows of the weight matrix. -/
abbrev rowsByRows := dot_S128x2048_S2048x2048_S128x2048_1_1_0_0_n_n

theorem lhs_row (j : S128x2048.Idx) (k : rowsByRows.contr.Idx) : (rowsByRows.lhsIdx j k 0).val = (j 0).val := by
  unfold DotDims.lhsIdx
  rw [dif_neg (show ¬(0 : Fin S128x2048.rank) ∈ rowsByRows.lhsBatch by decide),
    dif_pos (show (0 : Fin S128x2048.rank) ∈ rowsByRows.lhsNonContracting by decide)]
  rfl
theorem lhs_feature (j : S128x2048.Idx) (k : rowsByRows.contr.Idx) : (rowsByRows.lhsIdx j k 1).val = (k ⟨0, by decide⟩).val :=
  rowsByRows.lhsIdx_val_of_single rfl j k
theorem rhs_row (j : S128x2048.Idx) (k : rowsByRows.contr.Idx) : (rowsByRows.rhsIdx j k 0).val = (j 1).val := by
  unfold DotDims.rhsIdx
  rw [dif_neg (show ¬(0 : Fin S2048x2048.rank) ∈ rowsByRows.rhsBatch by decide),
    dif_pos (show (0 : Fin S2048x2048.rank) ∈ rowsByRows.rhsNonContracting by decide)]
  rfl
theorem rhs_feature (j : S128x2048.Idx) (k : rowsByRows.contr.Idx) : (rowsByRows.rhsIdx j k 1).val = (k ⟨0, by decide⟩).val :=
  rowsByRows.rhsIdx_val_of_single rfl j k

/-- Into a zero accumulator, the product at `(p, q)` is the dot product of row `p` of the tile with row `q` of the
    weight matrix. -/
theorem matmul_rows_apply {φ₁ φ₂ : FTy} (a : FVec Ideal S128x2048 φ₁) (w : FVec Ideal S2048x2048 φ₂) (p : Fin 128) (q : Fin 2048) :
    matmul rowsByRows none a w (constant S128x2048 .f32 0x00000000#32) (ix2 p q) = ∑ d : Fin 2048, a (ix2 p d) * w (ix2 q d) := by
  refine (Ideal.matmul_constant_zero_apply rowsByRows none a w (ix2 p q)).trans ?_
  rw [← Equiv.sum_comp (contrEquiv1 rowsByRows 2048 rfl rfl).symm]
  refine Finset.sum_congr rfl fun d _ => ?_
  have hd := contrEquiv1_symm_val rowsByRows 2048 rfl rfl d
  have el : rowsByRows.lhsIdx (ix2 p q) ((contrEquiv1 rowsByRows 2048 rfl rfl).symm d) = ix2 p d := funext fun ax => Fin.ext (by
    match ax with
    | ⟨0, _⟩ => exact lhs_row _ _
    | ⟨1, _⟩ => exact (lhs_feature _ _).trans hd)
  have er : rowsByRows.rhsIdx (ix2 p q) ((contrEquiv1 rowsByRows 2048 rfl rfl).symm d) = ix2 q d := funext fun ax => Fin.ext (by
    match ax with
    | ⟨0, _⟩ => exact rhs_row _ _
    | ⟨1, _⟩ => exact (rhs_feature _ _).trans hd)
  rw [el, er]

theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl

/-- The stored tile at `(p, q)` is the gate of row `p` of the loaded tiles. -/
theorem payload_apply (v0 v3 : Vec Ideal S128x2048 .f32) (v6 v9 : Vec Ideal S2048x2048 .bf16) (v13 : Vec Ideal S1x2048 .f32)
    (v19 : Vec Ideal S2048x2048 .bf16) (v22 : Vec Ideal S1x2048 .f32) (v27 : Vec Ideal S128x2048 .f32) (p : Fin 128) (q : Fin 2048) :
    k0_pay1 (F := Ideal) v0 v3 v6 v9 v13 v19 v22 v27 (ix2 p q)
      = gate (fun d => v0 (ix2 p d)) (fun d => v3 (ix2 p d)) v6 v9 v19 (fun k => v13 (ix2 (0 : Fin 1) k))
          (v22 (ix2 (0 : Fin 1) q)) (v27 (ix2 p q)) q := by
  unfold k0_pay1
  simp only [shapeCast_self, mulf_apply, logistic_apply, addf_apply, matmul_rows_apply, truncf_apply, tanh_apply,
    broadcastTo_1b_ab_apply]
  rfl

end Cert.GatedPenalty.Kernel

end
-- ==== Proof.LibRowsFlatten.lean ====
/-
  A rank-3 array `[a, b, c]` and the matrix `[a·b, c]` of its rows, one recast as the other, read at an index.
  Row `r = s·b + t` of the matrix is the slice `(s, t, ·)` of the array: both sit at the same row-major position.
  General in the extents; the matrix's row count `n` is named with its equation `n = a·b` so that a literal
  (`16384` for `2048·8`) can be used.
-/
import Idealize.ShloMosaic.Lib.Pipeline.Value
import Idealize.ShloMosaic.Lib.ValueIdx

namespace Cert.LibRowsFlatten

open Idealize.ShloMosaic Idealize.ShloMosaic.ValueIdx

variable {α : Type}

/-- `[a, b, c]` recast as `[n, c]` with `n = a·b`, read at `(r, l)` with `r = s·b + t`: the array at `(s, t, l)`. -/
theorem shapeCast_abc_nc_apply {a b c n : ℕ} (x : (⟨3, ![a, b, c]⟩ : Shape).Idx → α)
    (h : (⟨3, ![a, b, c]⟩ : Shape).ShapeCasts ⟨2, ![n, c]⟩) (s : Fin a) (t : Fin b) (l : Fin c) (r : Fin n)
    (hr : r.val = s.val * b + t.val) :
    shapeCast ⟨2, ![n, c]⟩ x h (ix2 r l) = x (ix3 s t l) :=
  shapeCast_apply x h _ _ (by
    rw [Shape.rowMajor_val_three, Shape.rowMajor_val_two]
    show (s.val * b + t.val) * c + l.val = r.val * c + l.val
    rw [hr])

/-- `[n, c]` with `n = a·b` recast as `[a, b, c]`, read at `(s, t, l)`: the matrix at `(r, l)` with `r = s·b + t`. -/
theorem shapeCast_nc_abc_apply {a b c n : ℕ} (x : (⟨2, ![n, c]⟩ : Shape).Idx → α)
    (h : (⟨2, ![n, c]⟩ : Shape).ShapeCasts ⟨3, ![a, b, c]⟩) (s : Fin a) (t : Fin b) (l : Fin c) (r : Fin n)
    (hr : r.val = s.val * b + t.val) :
    shapeCast ⟨3, ![a, b, c]⟩ x h (ix3 s t l) = x (ix2 r l) :=
  shapeCast_apply x h _ _ (by
    rw [Shape.rowMajor_val_three, Shape.rowMajor_val_two]
    show r.val * c + l.val = (s.val * b + t.val) * c + l.val
    rw [hr])

end Cert.LibRowsFlatten
-- ==== Proof.HostPrefix.lean ====
/-
  What the launch finds in its operand arrays: the host lines before it recast each activation array
  `[position, batch, feature]` as the matrix of its `2048 · 8` rows, round the three weight matrices to bf16 (the identity
  on the extended reals), add the two first-layer biases, and recast the two bias vectors as one-row matrices.
  Each operand is read here at an index, from the program's arguments.
-/
import proofs.«163592_j46591805227609_2_alg».proof.Proof.Gen.KernelIdeal.Frame
import proofs.«163592_j46591805227609_2_alg».proof.Proof.Spec
import proofs.«163592_j46591805227609_2_alg».proof.Proof.LibRowsFlatten
import Idealize.ShloMosaic.Lib.StableHlo.Run
import Idealize.ShloMosaic.Lib.Pipeline.Value
import Idealize.ShloMosaic.Lib.ValueIdx
import Idealize.ShloMosaic.Lib.ValueLayout

noncomputable section

namespace Cert.GatedPenalty.Kernel

open Cert.KernelIdeal Cert.KernelIdeal.Gen Idealize.ShloMosaic Idealize.ShloMosaic.TcCoe Idealize.SL.Sem
open Idealize.ShloMosaic.StableHlo Idealize.ShloMosaic.ValueIdx Cert.GatedPenalty Cert.LibRowsFlatten

variable (m : (ℓ : Loc nD τ sig) → Buf (Elt Ideal) ℓ)

/-! ## The program's arguments on a core, as arrays of extended reals -/

abbrev argX (c : Dev nD) : FVec Ideal S2048x8x2048 .f32 := m ((c : Thread nD τ).loc main_arg0)
abbrev argLi (c : Dev nD) : FVec Ideal S2048x8x2048 .f32 := m ((c : Thread nD τ).loc main_arg1)
abbrev argPe (c : Dev nD) : FVec Ideal S2048x8x2048 .f32 := m ((c : Thread nD τ).loc main_arg2)
abbrev argW1 (c : Dev nD) : FVec Ideal S2048x2048 .f32 := m ((c : Thread nD τ).loc main_arg5)
abbrev argB1 (c : Dev nD) : FVec Ideal S2048 .f32 := m ((c : Thread nD τ).loc main_arg6)
abbrev argW2 (c : Dev nD) : FVec Ideal S2048x2048 .f32 := m ((c : Thread nD τ).loc main_arg7)
abbrev argB2 (c : Dev nD) : FVec Ideal S2048 .f32 := m ((c : Thread nD τ).loc main_arg8)
abbrev argV (c : Dev nD) : FVec Ideal S2048x2048 .f32 := m ((c : Thread nD τ).loc main_arg9)
abbrev argBV (c : Dev nD) : FVec Ideal S2048 .f32 := m ((c : Thread nD τ).loc main_arg10)

/-! ## The operand arrays, whole -/

theorem rows_x (c : Dev nD) : (V m c main_v0 : S16384x2048.Idx → EReal)
    = shapeCast S16384x2048 (argX m c) Facts₀.shapeCasts_S2048x8x2048_S16384x2048 := by
  show StableHlo.after hostOps0 (fun b => m (c, b)) (Proc.devRef .tc main_v0) = _
  after_results <;> rfl
theorem rows_li (c : Dev nD) : (V m c main_v1 : S16384x2048.Idx → EReal)
    = shapeCast S16384x2048 (argLi m c) Facts₀.shapeCasts_S2048x8x2048_S16384x2048 := by
  show StableHlo.after hostOps0 (fun b => m (c, b)) (Proc.devRef .tc main_v1) = _
  after_results <;> rfl
theorem rows_pe (c : Dev nD) : (V m c main_v2 : S16384x2048.Idx → EReal)
    = shapeCast S16384x2048 (argPe m c) Facts₀.shapeCasts_S2048x8x2048_S16384x2048 := by
  show StableHlo.after hostOps0 (fun b => m (c, b)) (Proc.devRef .tc main_v2) = _
  after_results <;> rfl
theorem rounded_W1 (c : Dev nD) : (V m c main_v3 : S2048x2048.Idx → EReal)
    = truncf (F := Ideal) .bf16 (argW1 m c) Facts₀.bitsLt_bf16_f32 := by
  show StableHlo.after hostOps0 (fun b => m (c, b)) (Proc.devRef .tc main_v3) = _
  after_results <;> rfl
theorem rounded_W2 (c : Dev nD) : (V m c main_v4 : S2048x2048.Idx → EReal)
    = truncf (F := Ideal) .bf16 (argW2 m c) Facts₀.bitsLt_bf16_f32 := by
  show StableHlo.after hostOps0 (fun b => m (c, b)) (Proc.devRef .tc main_v4) = _
  after_results <;> rfl
theorem rounded_V (c : Dev nD) : (V m c main_v5 : S2048x2048.Idx → EReal)
    = truncf (F := Ideal) .bf16 (argV m c) Facts₀.bitsLt_bf16_f32 := by
  show StableHlo.after hostOps0 (fun b => m (c, b)) (Proc.devRef .tc main_v5) = _
  after_results <;> rfl
theorem row_b12 (c : Dev nD) : (V m c main_v7 : S1x2048.Idx → EReal)
    = shapeCast S1x2048 (addf (F := Ideal) (argB1 m c) (argB2 m c)) Facts₀.shapeCasts_S2048_S1x2048 := by
  show StableHlo.after hostOps0 (fun b => m (c, b)) (Proc.devRef .tc main_v7) = _
  after_results <;> rfl
theorem row_bV (c : Dev nD) : (V m c main_v8 : S1x2048.Idx → EReal)
    = shapeCast S1x2048 (argBV m c) Facts₀.shapeCasts_S2048_S1x2048 := by
  show StableHlo.after hostOps0 (fun b => m (c, b)) (Proc.devRef .tc main_v8) = _
  after_results <;> rfl

/-! ## The same, at an index -/

theorem rows_x_apply (c : Dev nD) (r : Fin 16384) (d : Fin 2048) :
    (V m c main_v0 : S16384x2048.Idx → EReal) (ix2 r d) = argX m c (ix3 (position r) (batch r) d) :=
  (congrFun (rows_x m c) (ix2 r d)).trans (shapeCast_abc_nc_apply _ _ (position r) (batch r) d r (row_eq r))
theorem rows_li_apply (c : Dev nD) (r : Fin 16384) (d : Fin 2048) :
    (V m c main_v1 : S16384x2048.Idx → EReal) (ix2 r d) = argLi m c (ix3 (position r) (batch r) d) :=
  (congrFun (rows_li m c) (ix2 r d)).trans (shapeCast_abc_nc_apply _ _ (position r) (batch r) d r (row_eq r))
theorem rows_pe_apply (c : Dev nD) (r : Fin 16384) (d : Fin 2048) :
    (V m c main_v2 : S16384x2048.Idx → EReal) (ix2 r d) = argPe m c (ix3 (position r) (batch r) d) :=
  (congrFun (rows_pe m c) (ix2 r d)).trans (shapeCast_abc_nc_apply _ _ (position r) (batch r) d r (row_eq r))
theorem rounded_W1_apply (c : Dev nD) (i : S2048x2048.Idx) :
    (V m c main_v3 : S2048x2048.Idx → EReal) i = argW1 m c i := congrFun (rounded_W1 m c) i
theorem rounded_W2_apply (c : Dev nD) (i : S2048x2048.Idx) :
    (V m c main_v4 : S2048x2048.Idx → EReal) i = argW2 m c i := congrFun (rounded_W2 m c) i
theorem rounded_V_apply (c : Dev nD) (i : S2048x2048.Idx) :
    (V m c main_v5 : S2048x2048.Idx → EReal) i = argV m c i := congrFun (rounded_V m c) i
theorem row_b12_apply (c : Dev nD) (k : Fin 2048) :
    (V m c main_v7 : S1x2048.Idx → EReal) (ix2 (0 : Fin 1) k)
      = argB1 m c (ix1 k) + argB2 m c (ix1 k) :=
  (congrFun (row_b12 m c) (ix2 (0 : Fin 1) k)).trans (shapeCast_a_1a_apply _ _ (0 : Fin 1) k)
theorem row_bV_apply (c : Dev nD) (k : Fin 2048) :
    (V m c main_v8 : S1x2048.Idx → EReal) (ix2 (0 : Fin 1) k) = argBV m c (ix1 k) :=
  (congrFun (row_bV m c) (ix2 (0 : Fin 1) k)).trans (shapeCast_a_1a_apply _ _ (0 : Fin 1) k)

end Cert.GatedPenalty.Kernel

end
-- ==== Proof.Blocks.lean ====
/-
  From tiles to the array. The launch has one grid axis of 128 points; point `t` works on rows `128·t … 128·t + 127` of
  the matrix of rows: it reads that tile of the layer input, of `x` and of the position embedding, the whole weight
  matrices and bias rows, and writes back that tile of the result. Local row `p` of point `t` is row `128·t + p`, which is
  position `(128·t + p) / 8`, batch entry `(128·t + p) % 8`. So what each point writes back is its tile of ONE matrix, the
  specification's `resultRows` of the program's arguments, and since the 128 tiles cover the 16384 rows the output
  array ends holding that matrix.
-/
import proofs.«163592_j46591805227609_2_alg».proof.Proof.Gen.KernelIdeal.Frame
import proofs.«163592_j46591805227609_2_alg».proof.Proof.Payload
import proofs.«163592_j46591805227609_2_alg».proof.Proof.HostPrefix

set_option maxRecDepth 16384

noncomputable section

namespace Cert.GatedPenalty.Kernel

open Cert.KernelIdeal Cert.KernelIdeal.Gen Idealize.ShloMosaic Idealize.ShloMosaic.TcCoe Idealize.SL.Sem
open Idealize.ShloMosaic.ValueIdx Cert.GatedPenalty
open Idealize.ShloMosaic.Pipeline (Dat Cfg Window)

variable (m : (ℓ : Loc nD τ sig) → Buf (Elt Ideal) ℓ)

theorem offset_zero : (![0, 0] : Fin 2 → Nat) = fun _ => 0 := funext fun a => by fin_cases a <;> rfl

/-- The matrix of rows the launch computes, from the program's arguments. -/
abbrev launched (c : Dev nD) : S16384x2048.Idx → EReal :=
  resultRows (argX m c) (argLi m c) (argPe m c) (argW1 m c) (argB1 m c) (argW2 m c) (argB2 m c) (argV m c) (argBV m c)

/-- The printed index maps, decided over the grid: the row-tiled operands and the output are at block `t` on the row
    axis, the resident operands at block zero. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 128 := lt_of_lt_of_eq t.isLt N_0

/-! ## The input tiles, read from the program's arguments -/

/-- Row `p` of point `t`'s tile of the layer input is row `r = 128·t + p` of the matrix of rows. -/
theorem tile_li (c : Dev nD) (t : Fin cfg0.N) (p : Fin 128) (d : Fin 2048) (r : Fin 16384) (hr : r.val = t.val * 128 + p.val) :
    iblk m c 0 t (ix2 p d : S128x2048.Idx) = argLi m c (ix3 (position r) (batch r) d) := by
  obtain ⟨e0, e1, -⟩ := block_indices t
  refine Eq.trans ?_ (rows_li_apply m c r d)
  exact congrArg (V m c main_v1 : S16384x2048.Idx → EReal)
    (show ((cfg0.win 0).blk t).view.emb (ix2 p d : S128x2048.Idx) = ix2 r d from funext fun a => Fin.ext (by
      match a with
      | ⟨0, _⟩ => show win0_0.index t (0 : Fin 2) * 128 + 1 * p.val = r.val; omega
      | ⟨1, _⟩ => show win0_0.index t (1 : Fin 2) * 2048 + 1 * d.val = d.val; omega))

/-- The same for `x`, -/
theorem tile_x (c : Dev nD) (t : Fin cfg0.N) (p : Fin 128) (d : Fin 2048) (r : Fin 16384) (hr : r.val = t.val * 128 + p.val) :
    iblk m c 1 t (ix2 p d : S128x2048.Idx) = argX m c (ix3 (position r) (batch r) d) := by
  obtain ⟨-, -, e0, e1, -⟩ := block_indices t
  refine Eq.trans ?_ (rows_x_apply m c r d)
  exact congrArg (V m c main_v0 : S16384x2048.Idx → EReal)
    (show ((cfg0.win 1).blk t).view.emb (ix2 p d : S128x2048.Idx) = ix2 r d from funext fun a => Fin.ext (by
      match a with
      | ⟨0, _⟩ => show win0_1.index t (0 : Fin 2) * 128 + 1 * p.val = r.val; omega
      | ⟨1, _⟩ => show win0_1.index t (1 : Fin 2) * 2048 + 1 * d.val = d.val; omega))

/-- and for the position embedding. -/
theorem tile_pe (c : Dev nD) (t : Fin cfg0.N) (p : Fin 128) (d : Fin 2048) (r : Fin 16384) (hr : r.val = t.val * 128 + p.val) :
    iblk m c 2 t (ix2 p d : S128x2048.Idx) = argPe m c (ix3 (position r) (batch r) d) := by
  obtain ⟨-, -, -, -, e0, e1, -⟩ := block_indices t
  refine Eq.trans ?_ (rows_pe_apply m c r d)
  exact congrArg (V m c main_v2 : S16384x2048.Idx → EReal)
    (show ((cfg0.win 2).blk t).view.emb (ix2 p d : S128x2048.Idx) = ix2 r d from funext fun a => Fin.ext (by
      match a with
      | ⟨0, _⟩ => show win0_2.index t (0 : Fin 2) * 128 + 1 * p.val = r.val; omega
      | ⟨1, _⟩ => show win0_2.index t (1 : Fin 2) * 2048 + 1 * d.val = d.val; omega))

/-- A resident weight matrix is read whole at every point: `W1`, -/
theorem whole_W1 (c : Dev nD) (t : Fin cfg0.N) (k d : Fin 2048) :
    iblk m c 3 t (ix2 k d : S2048x2048.Idx) = argW1 m c (ix2 k d) := by
  obtain ⟨-, -, -, -, -, -, e0, e1, -⟩ := block_indices t
  refine Eq.trans ?_ (rounded_W1_apply m c (ix2 k d))
  exact congrArg (V m c main_v3 : S2048x2048.Idx → EReal)
    (show ((cfg0.win 3).blk t).view.emb (ix2 k d : S2048x2048.Idx) = ix2 k d from funext fun a => Fin.ext (by
      match a with
      | ⟨0, _⟩ => show win0_3.index t (0 : Fin 2) * 2048 + 1 * k.val = k.val; omega
      | ⟨1, _⟩ => show win0_3.index t (1 : Fin 2) * 2048 + 1 * d.val = d.val; omega))

/-- `W2`, -/
theorem whole_W2 (c : Dev nD) (t : Fin cfg0.N) (k d : Fin 2048) :
    iblk m c 5 t (ix2 k d : S2048x2048.Idx) = argW2 m c (ix2 k d) := by
  obtain ⟨-, -, -, -, -, -, -, -, -, -, e0, e1, -⟩ := block_indices t
  refine Eq.trans ?_ (rounded_W2_apply m c (ix2 k d))
  exact congrArg (V m c main_v4 : S2048x2048.Idx → EReal)
    (show ((cfg0.win 5).blk t).view.emb (ix2 k d : S2048x2048.Idx) = ix2 k d from funext fun a => Fin.ext (by
      match a with
      | ⟨0, _⟩ => show win0_5.index t (0 : Fin 2) * 2048 + 1 * k.val = k.val; omega
      | ⟨1, _⟩ => show win0_5.index t (1 : Fin 2) * 2048 + 1 * d.val = d.val; omega))

/-- and `V`. -/
theorem whole_V (c : Dev nD) (t : Fin cfg0.N) (k d : Fin 2048) :
    iblk m c 6 t (ix2 k d : S2048x2048.Idx) = argV m c (ix2 k d) := by
  obtain ⟨-, -, -, -, -, -, -, -, -, -, -, -, e0, e1, -⟩ := block_indices t
  refine Eq.trans ?_ (rounded_V_apply m c (ix2 k d))
  exact congrArg (V m c main_v5 : S2048x2048.Idx → EReal)
    (show ((cfg0.win 6).blk t).view.emb (ix2 k d : S2048x2048.Idx) = ix2 k d from funext fun a => Fin.ext (by
      match a with
      | ⟨0, _⟩ => show win0_6.index t (0 : Fin 2) * 2048 + 1 * k.val = k.val; omega
      | ⟨1, _⟩ => show win0_6.index t (1 : Fin 2) * 2048 + 1 * d.val = d.val; omega))

/-- The resident first-layer bias row holds the sum of the two bias vectors, -/
theorem whole_b12 (c : Dev nD) (t : Fin cfg0.N) (k : Fin 2048) :
    iblk m c 4 t (ix2 (0 : Fin 1) k : S1x2048.Idx) = argB1 m c (ix1 k) + argB2 m c (ix1 k) := by
  obtain ⟨-, -, -, -, -, -, -, -, e0, e1, -⟩ := block_indices t
  refine Eq.trans ?_ (row_b12_apply m c k)
  exact congrArg (V m c main_v7 : S1x2048.Idx → EReal)
    (show ((cfg0.win 4).blk t).view.emb (ix2 (0 : Fin 1) k : S1x2048.Idx) = ix2 (0 : Fin 1) k from funext fun a => Fin.ext (by
      match a with
      | ⟨0, _⟩ => show win0_4.index t (0 : Fin 2) * 1 + 1 * 0 = 0; omega
      | ⟨1, _⟩ => show win0_4.index t (1 : Fin 2) * 2048 + 1 * k.val = k.val; omega))

/-- and the second-layer bias row the bias vector of `V`. -/
theorem whole_bV (c : Dev nD) (t : Fin cfg0.N) (k : Fin 2048) :
    iblk m c 7 t (ix2 (0 : Fin 1) k : S1x2048.Idx) = argBV m c (ix1 k) := by
  obtain ⟨-, -, -, -, -, -, -, -, -, -, -, -, -, -, e0, e1, -⟩ := block_indices t
  refine Eq.trans ?_ (row_bV_apply m c k)
  exact congrArg (V m c main_v8 : S1x2048.Idx → EReal)
    (show ((cfg0.win 7).blk t).view.emb (ix2 (0 : Fin 1) k : S1x2048.Idx) = ix2 (0 : Fin 1) k from funext fun a => Fin.ext (by
      match a with
      | ⟨0, _⟩ => show win0_7.index t (0 : Fin 2) * 1 + 1 * 0 = 0; omega
      | ⟨1, _⟩ => show win0_7.index t (1 : Fin 2) * 2048 + 1 * k.val = k.val; omega))

/-! ## What a point writes back -/

/-- The gate depends only on the values of its operands. -/
theorem gate_congr {l l' x x' : Fin 2048 → EReal} {W1 W1' W2 W2' V V' : Mat.Idx → EReal} {b b' : Fin 2048 → EReal}
    {c c' pe pe' : EReal} (q : Fin 2048) (hl : l = l') (hx : x = x') (h1 : W1 = W1') (h2 : W2 = W2') (hV : V = V')
    (hb : b = b') (hc : c = c') (hpe : pe = pe') :
    gate l x W1 W2 V b c pe q = gate l' x' W1' W2' V' b' c' pe' q := by
  subst hl hx h1 h2 hV hb hc hpe; rfl

/-- The matrix of rows at row `r`, feature `q`, spelled out. -/
theorem launched_apply (c : Dev nD) (r : Fin 16384) (q : Fin 2048) :
    launched m c (ix2 r q) = gate (fun d => argLi m c (ix3 (position r) (batch r) d)) (fun d => argX m c (ix3 (position r) (batch r) d))
      (argW1 m c) (argW2 m c) (argV m c) (fun k => argB1 m c (ix1 k) + argB2 m c (ix1 k)) (argBV m c (ix1 q))
      (argPe m c (ix3 (position r) (batch r) q)) q := rfl

/-- Point `t` writes back rows `128·t … 128·t + 127` of the matrix of rows. -/
theorem flushed_eq (c : Dev nD) (t : Fin cfg0.N) :
    (dats m 0 c).flushed 8 t = ((cfg0.win 8).blk t).view.read (Elt Ideal) (launched m c) := by
  show (cfg0.win 8).cut (grid0.coords t) ((dats m 0 c).after 8 t) = _
  rw [after0_8]
  unfold out0_8
  rw [View.canon_unit_zero offset_zero]
  simp only [View.ld_unit_zero (S := S128x2048) offset_zero, View.ld_unit_zero (S := S2048x2048) offset_zero,
    View.ld_unit_zero (S := S1x2048) offset_zero]
  obtain ⟨-, -, -, -, -, -, -, -, -, -, -, -, -, -, -, -, e0, e1⟩ := block_indices t
  have ht := point_lt t
  funext y
  have hp : (y 0).val < 128 := (y 0).isLt
  have hq : (y 1).val < 2048 := (y 1).isLt
  have hy : y = (ix2 (⟨(y 0).val, hp⟩ : Fin 128) (⟨(y 1).val, hq⟩ : Fin 2048) : S128x2048.Idx) :=
    funext fun a => by match a with | ⟨0, _⟩ => rfl | ⟨1, _⟩ => rfl
  have hemb : ((cfg0.win 8).blk t).view.emb y
      = (ix2 (⟨t.val * 128 + (y 0).val, by omega⟩ : Fin 16384) (⟨(y 1).val, hq⟩ : Fin 2048) : S16384x2048.Idx) :=
    funext fun a => Fin.ext (by
      match a with
      | ⟨0, _⟩ => show win0_8.index t (0 : Fin 2) * 128 + 1 * (y 0).val = t.val * 128 + (y 0).val; omega
      | ⟨1, _⟩ => show win0_8.index t (1 : Fin 2) * 2048 + 1 * (y 1).val = (y 1).val; omega)
  show k0_pay1 (F := Ideal) (iblk m c 0 t) (iblk m c 1 t) (iblk m c 3 t) (iblk m c 5 t) (iblk m c 4 t) (iblk m c 6 t)
      (iblk m c 7 t) (iblk m c 2 t) y = launched m c (((cfg0.win 8).blk t).view.emb y)
  refine Eq.trans (congrArg (k0_pay1 (F := Ideal) (iblk m c 0 t) (iblk m c 1 t) (iblk m c 3 t) (iblk m c 5 t) (iblk m c 4 t)
    (iblk m c 6 t) (iblk m c 7 t) (iblk m c 2 t)) hy) ?_
  refine Eq.trans ?_ (congrArg (launched m c) hemb).symm
  refine (payload_apply (iblk m c 0 t) (iblk m c 1 t) (iblk m c 3 t) (iblk m c 5 t) (iblk m c 4 t) (iblk m c 6 t)
    (iblk m c 7 t) (iblk m c 2 t) ⟨(y 0).val, hp⟩ ⟨(y 1).val, hq⟩).trans ?_
  refine Eq.trans ?_ (launched_apply m c _ _).symm
  exact gate_congr _
    (funext fun d => tile_li m c t _ d _ rfl)
    (funext fun d => tile_x m c t _ d _ rfl)
    (funext fun i => (congrArg (iblk m c 3 t) (eq_ix2 i)).trans ((whole_W1 m c t (i 0) (i 1)).trans (congrArg (argW1 m c) (eq_ix2 i).symm)))
    (funext fun i => (congrArg (iblk m c 5 t) (eq_ix2 i)).trans ((whole_W2 m c t (i 0) (i 1)).trans (congrArg (argW2 m c) (eq_ix2 i).symm)))
    (funext fun i => (congrArg (iblk m c 6 t) (eq_ix2 i)).trans ((whole_V m c t (i 0) (i 1)).trans (congrArg (argV m c) (eq_ix2 i).symm)))
    (funext fun k => whole_b12 m c t k)
    (whole_bV m c t _)
    (tile_pe m c t _ _ _ rfl)

/-! ## The tiles cover the rows -/

/-- An index of the output array is in point `t`'s tile iff each coordinate is in the tile's range on its axis. -/
theorem mem_tile (t : Fin cfg0.N) (i : S16384x2048.Idx) :
    i ∈ ((cfg0.win 8).blk t).view.set ↔ ∀ a : Fin 2, win0_8.index t a * S128x2048.size a ≤ (i a).val
      ∧ (i a).val < win0_8.index t a * S128x2048.size a + S128x2048.size a := by
  show i ∈ ((View.whole main_v9).slice (win0_8.rect t)).set ↔ _
  rw [View.set_slice_whole, Rect.mem_set_unit]
  exact Iff.rfl

/-- Row `r` is in the tile of point `r / 128`. -/
theorem covered (i : S16384x2048.Idx) :
    ∃ t : Fin cfg0.N, (cfg0.win 8).flush t = true ∧ i ∈ ((cfg0.win 8).blk t).view.set := by
  have hi0 : (i 0).val < 16384 := (i 0).isLt
  have hi1 : (i 1).val < 2048 := (i 1).isLt
  have hlt : (i 0).val / 128 < cfg0.N := lt_of_lt_of_eq (by omega : (i 0).val / 128 < 128) N_0.symm
  obtain ⟨-, -, -, -, -, -, -, -, -, -, -, -, -, -, -, -, e0, e1⟩ := block_indices ⟨(i 0).val / 128, hlt⟩
  have e0' : win0_8.index ⟨(i 0).val / 128, hlt⟩ (0 : Fin 2) = (i 0).val / 128 := e0
  refine ⟨⟨(i 0).val / 128, hlt⟩, flush0_8 _, ?_⟩
  rw [mem_tile]
  intro a
  match a with
  | ⟨0, _⟩ =>
    show win0_8.index ⟨(i 0).val / 128, hlt⟩ (0 : Fin 2) * 128 ≤ (i 0).val
      ∧ (i 0).val < win0_8.index ⟨(i 0).val / 128, hlt⟩ (0 : Fin 2) * 128 + 128
    omega
  | ⟨1, _⟩ =>
    show win0_8.index ⟨(i 0).val / 128, hlt⟩ (1 : Fin 2) * 2048 ≤ (i 1).val
      ∧ (i 1).val < win0_8.index ⟨(i 0).val / 128, hlt⟩ (1 : Fin 2) * 2048 + 2048
    omega

/-- The output array of the launch ends holding the matrix of rows. -/
theorem launched_final (c : Dev nD) : (dats m 0 c).arrAt 8 cfg0.N = launched m c :=
  (dats m 0 c).arrAt_eq_of_cover 8 (launched m c) (fun t _ => flushed_eq m c t) covered

end Cert.GatedPenalty.Kernel

end
-- ==== Proof.KernelRun.lean ====
/-
  The kernel program's run, read as a value. After the launch one host line recasts the matrix of `2048 · 8` rows as the
  array `[position, batch, feature]`: entry `(s, b, e)` is row `s · 8 + b`, feature `e` of the matrix, and that row is
  position `s`, batch entry `b`. So the program's result is the specification's result array of its arguments.
-/
import proofs.«163592_j46591805227609_2_alg».proof.Proof.Blocks
import proofs.«163592_j46591805227609_2_alg».proof.Proof.LibRowsFlatten
import Idealize.ShloMosaic.Lib.StableHlo.Run

noncomputable section

namespace Cert.GatedPenalty.Kernel

open Cert.KernelIdeal Cert.KernelIdeal.Gen Idealize.ShloMosaic Idealize.ShloMosaic.TcCoe Idealize.SL.Sem
open Idealize.ShloMosaic.StableHlo Idealize.ShloMosaic.ValueIdx Cert.GatedPenalty Cert.LibRowsFlatten

variable (m : (ℓ : Loc nD τ sig) → Buf (Elt Ideal) ℓ)

/-- Row `s · 8 + b` of the matrix of rows is the result at position `s`, batch entry `b`. -/
theorem resultRows_rowOf (x li pe : Act.Idx → EReal) (W1 : Mat.Idx → EReal) (b1 : Bias.Idx → EReal) (W2 : Mat.Idx → EReal)
    (b2 : Bias.Idx → EReal) (V : Mat.Idx → EReal) (bV : Bias.Idx → EReal) (s : Fin 2048) (b : Fin 8) (e : Fin 2048) :
    resultRows x li pe W1 b1 W2 b2 V bV (ix2 (rowOf s b) e) = resultArr x li pe W1 b1 W2 b2 V bV (ix3 s b e) := by
  show result x li pe W1 b1 W2 b2 V bV (position (rowOf s b)) (batch (rowOf s b)) e = result x li pe W1 b1 W2 b2 V bV s b e
  rw [position_rowOf, batch_rowOf]

/-- The program's result buffer after the host line that follows the launch. -/
theorem result_final (c : Dev nD) :
    (Pipeline.afterTail₀ cfgs (dats m) 0 (V0 m) [hostOps1] c main_v10 : S2048x8x2048.Idx → EReal)
      = resultArr (argX m c) (argLi m c) (argPe m c) (argW1 m c) (argB1 m c) (argW2 m c) (argB2 m c) (argV m c) (argBV m c) := by
  have hw : Pipeline.withArrays (cfgs 0).spec c (V0 m c) (fun w => (dats m 0 c).arrAt w (cfgs 0).N) (Proc.devRef .tc main_v9)
      = launched m c :=
    (Pipeline.withArrays_arr spec0 launch0.win.arr_inj c _ _ 8).trans (launched_final m c)
  have h1 : (Pipeline.afterTail₀ cfgs (dats m) 0 (V0 m) [hostOps1] c main_v10 : S2048x8x2048.Idx → EReal)
      = shapeCast S2048x8x2048 (launched m c) Facts₀.shapeCasts_S16384x2048_S2048x8x2048 := by
    unfold Pipeline.afterTail₀
    show StableHlo.after hostOps1 _ (Proc.devRef .tc main_v10) = _
    after_results
    rw [hw]
    rfl
  rw [h1]
  funext i
  obtain ⟨s, b, e, rfl⟩ : ∃ (s : Fin 2048) (b : Fin 8) (e : Fin 2048), i = ix3 s b e := ⟨i 0, i 1, i 2, eq_ix3 i⟩
  exact (shapeCast_nc_abc_apply (launched m c) _ s b e (rowOf s b) rfl).trans (resultRows_rowOf _ _ _ _ _ _ _ _ _ s b e)

/-- Every weakly fair execution of the kernel program terminates with its result buffer at the specification's result
    array of the arguments, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v10) = resultArr (argX m c) (argLi m c) (argPe m c) (argW1 m c) (argB1 m c) (argW2 m c) (argB2 m c) (argV m c) (argBV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).2 main_v10 (Pipeline.mem_restRefs_of main_v10 (by decide) (by decide))).trans (result_final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.GatedPenalty.Kernel

end
-- ==== Proof.lean ====
/-
  The kernel and the reference compute one function on the extended reals:

      out[s, b, ·] = logistic (V · tanh (W1 · layer_input[s, b, ·] + W2 · x[s, b, ·] + b1 + b2) + bV) ⊙ position_embedding[s, b, ·]

  with the weight matrices stored output-feature first. The kernel flattens the `2048 · 8` token rows into a matrix,
  works on it 128 rows at a time with the weights resident, adds `b1 + b2` once on the host, and recasts the result; the
  reference contracts the rank-3 arrays directly, adds the biases one after the other and writes the logistic function as
  `1 / (1 + exp (-t))`. Roundings to bf16 are the identity on the extended reals, a matrix product into a zero accumulator
  is a plain sum, and the only algebra is commutativity and associativity of addition, which hold at the infinities
  too: the precondition is not used for the value.

  Modules: `Spec` (the function, and the regrouping law), `RefSide` (the reference computes it), `Payload` (the kernel
  body's stored tile, element by element), `HostPrefix` (the launch's operands from the arguments), `Blocks` (tiles to
  the array), `KernelRun` (the recast after the launch, and the kernel program's run), `LibRowsFlatten` (the recast
  between `[a, b, c]` and `[a·b, c]` read at an index).
-/
import proofs.«163592_j46591805227609_2_alg».proof.Defs
import proofs.«163592_j46591805227609_2_alg».proof.Proof.Gen.Kernel
import proofs.«163592_j46591805227609_2_alg».proof.Proof.Gen.Kernel.Frame
import proofs.«163592_j46591805227609_2_alg».proof.Proof.Gen.KernelIdeal
import proofs.«163592_j46591805227609_2_alg».proof.Proof.Gen.KernelIdeal.Frame
import proofs.«163592_j46591805227609_2_alg».proof.Proof.Gen.ReferenceIdeal
import proofs.«163592_j46591805227609_2_alg».proof.Proof.Gen.ReferenceIdeal.Run
import proofs.«163592_j46591805227609_2_alg».proof.Proof.Gen.ReferenceIdeal.Read
import proofs.«163592_j46591805227609_2_alg».proof.Proof.Gen.Pre_finite_inputs
import proofs.«163592_j46591805227609_2_alg».proof.Proof.RefSide
import proofs.«163592_j46591805227609_2_alg».proof.Proof.KernelRun

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the specification's result array. -/
theorem algebraic : Cert.algebraic_KernelIdeal_ReferenceIdeal := by
  intro m ρ m' ρ' _ hagree
  refine ⟨fun c => Cert.GatedPenalty.resultArr (Cert.GatedPenalty.Kernel.argX m c) (Cert.GatedPenalty.Kernel.argLi m c) (Cert.GatedPenalty.Kernel.argPe m c) (Cert.GatedPenalty.Kernel.argW1 m c) (Cert.GatedPenalty.Kernel.argB1 m c) (Cert.GatedPenalty.Kernel.argW2 m c) (Cert.GatedPenalty.Kernel.argB2 m c) (Cert.GatedPenalty.Kernel.argV m c) (Cert.GatedPenalty.Kernel.argBV m c),
    Cert.GatedPenalty.Kernel.run m ρ, ?_⟩
  refine (θ_run Cert.ReferenceIdeal.defs _ _).mono (fun _ h c => ⟨?_, (h c).2⟩)
    (Cert.ReferenceIdeal.Value.run (F := Ideal) m' ρ')
  obtain ⟨a0, a1, a2, -, -, a5, a6, a7, a8, a9, a10⟩ := hagree c
  rw [(h c).1, Cert.ReferenceIdeal.Read.val_main_v20_eq, Cert.GatedPenalty.Reference.reference_eq, a0, a1, a2, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
